-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x33554432 : Shape := ⟨2, ![1, 33554432]⟩
abbrev S1x1 : Shape := ⟨2, ![1, 1]⟩
abbrev S1 : Shape := ⟨1, ![1]⟩
abbrev S_ : Shape := ⟨0, ![]⟩

class Facts : Prop where
  bcast_S_S1x33554432 : S_.BroadcastsInDim S1x33554432 (![] : Fin 0 → Fin S1x33554432.rank)
  reducesTo_S1x33554432_S_d0_1 : S1x33554432.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S1x33554432 .f32) (main_arg1 : FVec F S1x1 .f32) (main_arg2 : FVec F S1 .f32) : IVec S_ 1 :=
  let main_v0 : FVec F S1x33554432 .f32 := Host.absf main_arg0
  let main_cst : FVec F S_ .f32 := constant S_ .f32 0x7F800000#32
  let main_v1 : FVec F S1x33554432 .f32 := broadcastInDim S1x33554432 ![] bcast_S_S1x33554432 main_cst
  let main_v2 : IVec S1x33554432 1 := cmpf .olt main_v0 main_v1
  let main_c : IVec S_ 1 := constantI S_ 1 1#1
  let main_v3 : IVec S_ 1 := (fun x v => Host.reduce IntOp.andi x v reducesTo_S1x33554432_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S1x33554432 : Shape := ⟨2, ![1, 33554432]⟩
abbrev S1x1 : Shape := ⟨2, ![1, 1]⟩
abbrev S1 : Shape := ⟨1, ![1]⟩
abbrev S262144x128 : Shape := ⟨2, ![262144, 128]⟩
abbrev S8192x128 : Shape := ⟨2, ![8192, 128]⟩
abbrev S33554432 : Shape := ⟨1, ![33554432]⟩

abbrev nBuf : Space → Nat
  | .hbm => 6
  | .vmem => 6
  | .smem => 0
  | _ => 0

abbrev bufTy : (tb : Table) → Fin (tcTables nBuf tb) → BufTy
  | .hbm, ⟨0, _⟩ => ⟨S1x33554432, .f32⟩
  | .hbm, ⟨1, _⟩ => ⟨S1x1, .f32⟩
  | .hbm, ⟨2, _⟩ => ⟨S1, .f32⟩
  | .hbm, ⟨3, _⟩ => ⟨S262144x128, .f32⟩
  | .hbm, ⟨4, _⟩ => ⟨S262144x128, .f32⟩
  | .hbm, ⟨5, _⟩ => ⟨S33554432, .f32⟩
  | .local _ .vmem, ⟨0, _⟩ => ⟨S1x1, .f32⟩
  | .local _ .vmem, ⟨1, _⟩ => ⟨S1, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S1x33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x33554432_S262144x128 : S1x33554432.ShapeCasts S262144x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1_S1_0 : ∀ a, (![0] : Fin 1 → Nat) a + S1.size a ≤ S1.size a
  h_S1 : 0 < S1.numel
  inpos_S1_p0 : ∀ a, (![0] : Fin 1 → Nat) a < S1.size a
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S262144x128_S33554432 : S262144x128.ShapeCasts S33554432
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1.size a ≤ S1.size a
  hwx0_1 : ∀ i : grid0.Coords, EltTy.bits .f32 = 32 ∨ (Rect.block (s := S1) S1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

abbrev win0_0 : Pipeline.Window sig grid0 :=
  Pipeline.Window.ofSpec (Memref.whole main_arg1) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x33554432 : Shape := ⟨2, ![1, 33554432]⟩
abbrev S1x1 : Shape := ⟨2, ![1, 1]⟩
abbrev S1 : Shape := ⟨1, ![1]⟩
abbrev S33554432 : Shape := ⟨1, ![33554432]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1x33554432, .f32⟩
  | .hbm, ⟨1, _⟩ => ⟨S1x1, .f32⟩
  | .hbm, ⟨2, _⟩ => ⟨S1, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S33554432, .f32⟩
  | .hbm, ⟨12, _⟩ => ⟨S_, .f32⟩
  | .hbm, ⟨13, _⟩ => ⟨S33554432, .f32⟩
  | .hbm, ⟨14, _⟩ => ⟨S33554432, .f32⟩
  | .hbm, ⟨15, _⟩ => ⟨S_, .f32⟩
  | .hbm, ⟨16, _⟩ => ⟨S33554432, .f32⟩
  | .hbm, ⟨17, _⟩ => ⟨S33554432, .f32⟩
  | _, _ => ⟨S1x33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S1x33554432_S33554432 : S1x33554432.ShapeCasts S33554432
  shapeCasts_S1x1_S_ : S1x1.ShapeCasts S_
  bcast_S_S33554432 : S_.BroadcastsInDim S33554432 (![] : Fin 0 → Fin S33554432.rank)
  shapeCasts_S1_S_ : S1.ShapeCasts S_

variable [Facts₀]

class Facts : Prop extends Facts₀ where

variable [Facts]
-- ==== Proof.Sigmoid.lean ====
/-
  The mathematics both programs share. Each entry of the result is the logistic function of an affine function of one
  entry of the input: `σ(x · w + b)` with `σ(z) = 1 / (1 + e^(-z))`, the weight `w` and the bias `b` single numbers.

  * `affSig X w b` is that function of a whole array `X`, entry by entry, over any shape.
  * Re-laying an array in row-major order under another shape only renames its indices, so it commutes with any
    entry-by-entry function (`shapeCast_affSig`), and two re-layings in a row are one (`shapeCast_twice`): the row-major
    position of an entry is kept by each.
  * The pattern `0x3F800000` is the number one: sign bit clear, biased exponent 127, fraction zero, so it denotes
    `2^23 · 2^(127 - 127 - 23) = 1` (`word_one`).
  * Spelled out with that word, `1 / (1 + exp (-z))` IS the logistic function on every extended real, the infinities
    included (`⊥ ↦ 0`, `⊤ ↦ 1`): both are the same quotient (`spelled_out_eq_logistic`). No finiteness is needed: no term is
    moved across a sum or cancelled.
  * An array with exactly one entry is determined by that entry, whichever index names it (`only_entry2`, `only_entry1`).
  * `flatOut x w b` is the whole computation on the arrays as given: the input row read as a flat vector, then `affSig`.
-/
import Idealize.ShloMosaic.PureOps.Ideal
import Idealize.ShloMosaic.Lib.Pipeline.Value

noncomputable section

namespace Cert.Sigmoid

open Idealize.ShloMosaic

section Generic

variable {F : FTy → Type} [FloatOps F]

/-- `σ(X j · w + b)` at every index `j` of an array of any shape. -/
def affSig {s : Shape} (X : s.Idx → F .f32) (w b : F .f32) : s.Idx → F .f32 :=
  fun j => FloatOps.logistic (FloatOps.addf (FloatOps.mulf (X j) w) b)

/-- Re-laying the result is the result of the re-laid input: the function acts on each entry alone. -/
theorem shapeCast_affSig {s t : Shape} (X : s.Idx → F .f32) (w b : F .f32) (h : s.ShapeCasts t) :
    shapeCast t (affSig X w b) h = affSig (shapeCast t X h) w b := rfl

/-- Two re-layings in a row are one: each keeps every entry's row-major position. -/
theorem shapeCast_twice {α : Type} {s s' t : Shape} (x : s.Idx → α) (h1 : s.ShapeCasts s') (h2 : s'.ShapeCasts t)
    (h3 : s.ShapeCasts t) : shapeCast t (shapeCast s' x h1) h2 = shapeCast t x h3 :=
  funext fun j => congrArg x (Shape.reshapeEquiv_reshapeEquiv h1 h2 j)

/-- The one index of a 1 × 1 array. -/
abbrev at11 : (⟨2, ![1, 1]⟩ : Shape).Idx := Shape.Idx.first (s := ⟨2, ![1, 1]⟩) (by decide)
/-- The one index of a one-entry vector. -/
abbrev at1 : (⟨1, ![1]⟩ : Shape).Idx := Shape.Idx.first (s := ⟨1, ![1]⟩) (by decide)

/-- Every index of a 1 × 1 array is its one index: each coordinate is below 1. -/
theorem only_entry2 {α : Type} (W : (⟨2, ![1, 1]⟩ : Shape).Idx → α) (o : (⟨2, ![1, 1]⟩ : Shape).Idx) : W o = W at11 :=
  congrArg W (funext fun d => by
    match d with
    | ⟨0, _⟩ => exact Fin.ext (by have ho : (o 0).val < 1 := (o 0).isLt; show (o 0).val = 0; omega)
    | ⟨1, _⟩ => exact Fin.ext (by have ho : (o 1).val < 1 := (o 1).isLt; show (o 1).val = 0; omega))

/-- Every index of a one-entry vector is its one index. -/
theorem only_entry1 {α : Type} (B : (⟨1, ![1]⟩ : Shape).Idx → α) (o : (⟨1, ![1]⟩ : Shape).Idx) : B o = B at1 :=
  congrArg B (funext fun d => by
    match d with
    | ⟨0, _⟩ => exact Fin.ext (by have ho : (o 0).val < 1 := (o 0).isLt; show (o 0).val = 0; omega))

/-- The flat result both programs compute: the 1 × 33554432 input read as a vector of 33554432 entries (entry `n` is
    entry `(0, n)`), then `σ(x n · w + b)` at every `n`. -/
def flatOut (x : (⟨2, ![1, 33554432]⟩ : Shape).Idx → F .f32) (w : (⟨2, ![1, 1]⟩ : Shape).Idx → F .f32)
    (b : (⟨1, ![1]⟩ : Shape).Idx → F .f32) (h : (⟨2, ![1, 33554432]⟩ : Shape).ShapeCasts ⟨1, ![33554432]⟩) :
    (⟨1, ![33554432]⟩ : Shape).Idx → F .f32 :=
  affSig (shapeCast ⟨1, ![33554432]⟩ x h) (w at11) (b at1)

end Generic

/-- The word's sign bit (bit 31) is clear. -/
theorem sign_field : ((0x3F800000#32 : BitVec 32).extractLsb' (8 + 23) 1 == 1#1) = false := by decide
/-- Its eight exponent bits (bits 23 to 30) read 127, the bias. -/
theorem exponent_field : ((0x3F800000#32 : BitVec 32).extractLsb' 23 8).toNat = 127 := by decide
/-- Its twenty-three fraction bits are all zero. -/
theorem fraction_field : ((0x3F800000#32 : BitVec 32).extractLsb' 0 23).toNat = 0 := by decide

/-- The word `0x3F800000` denotes one. With the three fields above the exponent is neither all ones (an infinity or
    a NaN) nor zero (a subnormal), so the word is the normal number `+(2^23 + 0) · 2^(127 - 127 - 23) = 1`. -/
theorem word_one : Ideal.ofBits .f32 0x3F800000#32 = 1 := by
  show Ideal.ieee 8 23 (0x3F800000#32 : BitVec 32) = 1
  unfold Ideal.ieee
  simp only [sign_field, exponent_field, fraction_field]
  rw [if_neg (by norm_num : ¬ (127 = 2 ^ 8 - 1)), if_neg (by norm_num : ¬ (127 = 0))]
  norm_num

/-- The quotient of one by one plus the exponential of the negated argument, as the host spells the logistic function
    with the word above, is the logistic function, on every extended real. -/
theorem spelled_out_eq_logistic (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = FloatOps.logistic z := by
  rw [Ideal.ofBits_def, word_one]
  rfl

end Cert.Sigmoid

end
-- ==== Proof.ArrayValue.lean ====
/-
  What the kernel's region leaves in its output array, as ONE function of the arrays it was launched on.

  The region runs over 32 grid points. Point `t` is handed rows `8192·t … 8192·t + 8191` of the 262144 × 128 input array (all
  128 columns), together with the whole 1 × 1 weight and the whole one-entry bias, and writes back the same rows of
  the output array. Its body computes, at every entry `(r, l)` of its block, `σ(x (r, l) · w + b)`: one multiplication
  by the broadcast weight, one addition of the broadcast bias, the logistic function.

  * `body_value`: the body's stored value is `affSig` of the row block, the weight's one entry and the bias's one entry.
  * `written_back`: hence what point `t` writes back is block `t` of `affSig` of the WHOLE input array — the input block and
    the output block at `t` sit at the same rows (`same_rows`, decided over the 32 points), and the weight and the bias,
    each a one-entry array, are the same at every point.
  * `covered`: row `r` lies in the block of point `r / 8192`, so the 32 blocks cover every index.
  * `region_output`: so after the region the output array IS `affSig` of the input array, everywhere.
-/
import proofs.«168162_j23029614641657_1_alg».proof.Proof.Gen.KernelIdeal.Frame
import proofs.«168162_j23029614641657_1_alg».proof.Proof.Sigmoid
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Cert.Sigmoid

variable {F : FTy → Type} [FloatOps F]
variable (m : (ℓ : Loc nD τ sig) → Buf (Elt F) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The body's one stored value: the logistic function of (row block × weight entry + bias entry), entry by entry. The
    re-laying of the block under its own shape changes nothing; a broadcast scalar is that scalar at every index. -/
theorem body_value (x0 : Vec F S1x1 .f32) (x1 : Vec F S1 .f32) (x2 : Vec F S8192x128 .f32) :
    k0_pay1 x0 x1 x2 = affSig (s := S8192x128) x2 (x0 at11) (x1 at1) := by
  unfold k0_pay1
  dsimp only
  rw [shapeCast_self]
  funext j
  show FloatOps.logistic (FloatOps.addf (FloatOps.mulf (x2 j) (x0 _)) (x1 _)) = FloatOps.logistic (FloatOps.addf (FloatOps.mulf (x2 j) (x0 at11)) (x1 at1))
  rw [only_entry2 x0, only_entry1 x1]

/-- The printed index maps over the 32 points: the input rows' block and the output's block have the same block index
    on each axis, and that index is the point's number on the row axis and 0 on the column axis. -/
theorem same_rows : ∀ t : Fin cfg0.N, win0_2.index t (0 : Fin 2) = win0_3.index t (0 : Fin 2)
    ∧ win0_2.index t (1 : Fin 2) = win0_3.index t (1 : Fin 2)
    ∧ win0_3.index t (0 : Fin 2) = t.val
    ∧ win0_3.index t (1 : Fin 2) = 0 :=
  (by decide +kernel : ∀ t : Fin grid0.N, _)

/-- The whole-array function the region computes, of the arrays as the region finds them. -/
abbrev wholeOut (c : Dev nD) : S262144x128.Idx → Elt F .f32 :=
  affSig (s := S262144x128) (V m c main_v0) (V m c main_arg1 at11) (V m c main_arg2 at1)

/-- What point `t` writes back is block `t` of the whole-array function. -/
theorem written_back (c : Dev nD) (t : Fin cfg0.N) :
    (dats m 0 c).flushed 3 t = ((cfg0.win 3).blk t).view.read (Elt F) (wholeOut m c) := by
  show (cfg0.win 3).cut (grid0.coords t) ((dats m 0 c).after 3 t) = _
  rw [after0_3]
  unfold out0_3
  rw [View.canon_unit_zero zeros2]
  simp only [View.ld_unit_zero (S := S8192x128) zeros2, View.ld_unit_zero (S := S1x1) zeros2, View.ld_unit_zero (S := S1) zeros1]
  rw [body_value]
  obtain ⟨e0, e1, -, -⟩ := same_rows t
  funext j
  show FloatOps.logistic (FloatOps.addf (FloatOps.mulf (V m c main_v0 (((cfg0.win 2).blk t).view.emb j)) (V m c main_arg1 (((cfg0.win 0).blk t).view.emb at11))) (V m c main_arg2 (((cfg0.win 1).blk t).view.emb at1)))
    = FloatOps.logistic (FloatOps.addf (FloatOps.mulf (V m c main_v0 (((cfg0.win 3).blk t).view.emb j)) (V m c main_arg1 at11)) (V m c main_arg2 at1))
  have hrows : ((cfg0.win 2).blk t).view.emb j = ((cfg0.win 3).blk t).view.emb j := by
    funext a; apply Fin.ext
    match a with
    | ⟨0, _⟩ => show win0_2.index t (0 : Fin 2) * 8192 + 1 * (j 0).val = win0_3.index t (0 : Fin 2) * 8192 + 1 * (j 0).val; omega
    | ⟨1, _⟩ => show win0_2.index t (1 : Fin 2) * 128 + 1 * (j 1).val = win0_3.index t (1 : Fin 2) * 128 + 1 * (j 1).val; omega
  rw [hrows, only_entry2 (V m c main_arg1), only_entry1 (V m c main_arg2)]

/-- An index of the output array is in point `t`'s block iff each coordinate is in the block's range on its axis. -/
theorem in_block (t : Fin cfg0.N) (i : S262144x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v1).slice (win0_3.rect t)).set ↔ _
  rw [View.set_slice_whole, Rect.mem_set_unit]
  exact Iff.rfl

/-- Every index is in the block of the point numbered by its row divided by 8192. -/
theorem covered (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hlt : (i 0).val / 8192 < cfg0.N := by show _ < grid0.N; rw [N_0]; omega
  obtain ⟨-, -, e0, e1⟩ := same_rows ⟨(i 0).val / 8192, hlt⟩
  refine ⟨⟨(i 0).val / 8192, hlt⟩, flush0_3 _, ?_⟩
  rw [in_block]
  intro a
  match a with
  | ⟨0, _⟩ =>
    show win0_3.index ⟨(i 0).val / 8192, hlt⟩ (0 : Fin 2) * 8192 ≤ (i 0).val ∧ (i 0).val < win0_3.index ⟨(i 0).val / 8192, hlt⟩ (0 : Fin 2) * 8192 + 8192
    rw [e0]; show (i 0).val / 8192 * 8192 ≤ (i 0).val ∧ (i 0).val < (i 0).val / 8192 * 8192 + 8192; omega
  | ⟨1, _⟩ =>
    show win0_3.index ⟨(i 0).val / 8192, hlt⟩ (1 : Fin 2) * 128 ≤ (i 1).val ∧ (i 1).val < win0_3.index ⟨(i 0).val / 8192, hlt⟩ (1 : Fin 2) * 128 + 128
    rw [e1]; omega

/-- After the region the output array is the whole-array function, at every index. -/
theorem region_output (c : Dev nD) : (dats m 0 c).arrAt 3 cfg0.N = wholeOut m c :=
  (dats m 0 c).arrAt_eq_of_cover 3 (wholeOut m c) (fun t _ => written_back m c t) covered

end Cert.KernelIdeal.ArrayValue

end
-- ==== Proof.KernelRun.lean ====
/-
  The kernel program's run, with its result named.

  The program re-lays the 1 × 33554432 input as 262144 rows of 128, runs the region on those rows, and re-lays the
  region's 262144 × 128 output as a flat vector of 33554432 entries.

  * `rows_at_entry`: the array the region reads is the input re-laid as rows.
  * `result_after_region`: the program's result is the region's output array re-laid flat.
  * `result_value`: the region's output is `affSig` of the rows (`ArrayValue.region_output`); `affSig` commutes with the
    re-laying, and re-laying the input as rows and then flat is re-laying it flat at once. So the result is `flatOut` of
    the three arrays as launched: entry `n` is `σ(x (0, n) · w + b)`.
  * `run`: every weakly fair execution terminates with the result at that value and the three arguments unchanged.
-/
import proofs.«168162_j23029614641657_1_alg».proof.Proof.ArrayValue
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.Pipeline (Dat)
open Cert.Sigmoid

variable {F : FTy → Type} [FloatOps F]
variable (m : (ℓ : Loc nD τ sig) → Buf (Elt F) ℓ) (ρ : Dev nD → PrngReg)

/-- The region finds, as its input rows, the launched input re-laid as 262144 rows of 128. -/
theorem rows_at_entry (c : Dev nD) :
    (V m c main_v0 : S262144x128.Idx → Elt F .f32)
      = shapeCast S262144x128 (m ((c : Thread nD τ).loc main_arg0)) shapeCasts_S1x33554432_S262144x128 := by
  show StableHlo.after hostOps0 (fun b => m (c, b)) (Proc.devRef .tc main_v0) = _
  after_results
  rfl

/-- The program's result is the region's output array re-laid flat. -/
theorem result_after_region (c : Dev nD) :
    (Pipeline.afterTail₀ cfgs (dats m) 0 (V0 m) [hostOps1] c main_v2 : S33554432.Idx → Elt F .f32)
      = shapeCast S33554432 ((dats m 0 c).arrAt 3 cfg0.N) shapeCasts_S262144x128_S33554432 := by
  unfold Pipeline.afterTail₀
  show StableHlo.after hostOps1 _ (Proc.devRef .tc main_v2) = _
  after_results
  have region : Pipeline.withArrays (cfgs 0).spec c (V0 m c) (fun w => (dats m 0 c).arrAt w (cfgs 0).N) (Proc.devRef .tc main_v1)
      = (dats m 0 c).arrAt 3 cfg0.N :=
    Pipeline.withArrays_arr spec0 launch0.win.arr_inj c (V0 m c) (fun w => (dats m 0 c).arrAt w cfg0.N) 3
  funext i
  show shapeCast S33554432 (Pipeline.withArrays (cfgs 0).spec c (V0 m c) (fun w => (dats m 0 c).arrAt w (cfgs 0).N) (Proc.devRef .tc main_v1))
      shapeCasts_S262144x128_S33554432 i = _
  rw [region]

/-- The two re-layings, rows then flat, are the one re-laying flat. -/
theorem rows_then_flat : S1x33554432.ShapeCasts S33554432 :=
  shapeCasts_S262144x128_S33554432.trans shapeCasts_S1x33554432_S262144x128

/-- The program's result is `flatOut` of the three arrays as launched. -/
theorem result_value (c : Dev nD) :
    (Pipeline.afterTail₀ cfgs (dats m) 0 (V0 m) [hostOps1] c main_v2 : S33554432.Idx → Elt F .f32)
      = flatOut (m ((c : Thread nD τ).loc main_arg0)) (m ((c : Thread nD τ).loc main_arg1)) (m ((c : Thread nD τ).loc main_arg2))
          rows_then_flat := by
  rw [result_after_region, ArrayValue.region_output]
  unfold ArrayValue.wholeOut
  rw [shapeCast_affSig, rows_at_entry, V_main_arg1, V_main_arg2]
  exact congrArg (fun X => affSig X (m ((c : Thread nD τ).loc main_arg1) at11) (m ((c : Thread nD τ).loc main_arg2) at1))
    (shapeCast_twice (m ((c : Thread nD τ).loc main_arg0)) shapeCasts_S1x33554432_S262144x128 shapeCasts_S262144x128_S33554432
      rows_then_flat)

/-- Every weakly fair execution of the kernel program terminates, with the result at `flatOut` of the launched arrays and
    the three arguments unchanged. -/
theorem run : θ_run defs (onTc (τ := τ) (main (F := F))) ⟨m, fun _ => 0, ρ⟩ fun r => ∀ c : Dev nD,
      r.2.mem ((c.tc : Thread nD τ).loc main_v2)
        = flatOut (m ((c.tc : Thread nD τ).loc main_arg0)) (m ((c.tc : Thread nD τ).loc main_arg1)) (m ((c.tc : Thread nD τ).loc main_arg2))
            rows_then_flat
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v2 (Pipeline.mem_restRefs_of main_v2 (by decide) (by decide))).trans (result_value m c),
       ((h c).2 main_arg0 (Pipeline.mem_restRefs_of main_arg0 (by decide) (by decide))).trans (W_main_arg0 m (dats m) c),
       ((h c).1 0).trans (((dats m 0 c).arrAt_in 0 rfl _).trans ((A_eq m c 0).trans (V_main_arg1 m c))),
       ((h c).1 1).trans (((dats m 0 c).arrAt_in 1 rfl _).trans ((A_eq m c 1).trans (V_main_arg2 m c)))⟩)
    (run_main m ρ)

end Cert.KernelIdeal.RunValue

end
-- ==== Proof.ReferenceValue.lean ====
/-
  The reference program's result, as the same function of its arguments.

  The reference reads the 1 × 33554432 input as a flat vector, multiplies every entry by the weight's one entry
  (broadcast), adds the bias's one entry (broadcast), and applies the logistic function spelled out: it negates,
  exponentiates, adds the constant one, and divides the constant one by the sum. Entry `n` of its result is therefore
  `1 / (1 + exp (-(x (0, n) · w + b)))`, which is `σ(x (0, n) · w + b)` on every extended real
  (`Sigmoid.spelled_out_eq_logistic`). The weight and the bias reach the product and the sum through a re-laying to a
  rank-zero array and a broadcast: whichever index of the one-entry array that names, it is its one entry.
-/
import proofs.«168162_j23029614641657_1_alg».proof.Proof.Gen.ReferenceIdeal.Read
import proofs.«168162_j23029614641657_1_alg».proof.Proof.Sigmoid

noncomputable section

namespace Cert.ReferenceIdeal.RefValue

open Cert.ReferenceIdeal Cert.ReferenceIdeal.Gen Cert.ReferenceIdeal.Read Idealize.ShloMosaic Idealize.ShloMosaic.TcCoe
open Cert.Sigmoid

/-- The reference's last stage is `flatOut` of its three arguments. -/
theorem result_value (x : S1x33554432.Idx → Ideal .f32) (w : S1x1.Idx → Ideal .f32) (b : S1.Idx → Ideal .f32) :
    val_main_v12 (F := Ideal) x w b = flatOut (F := Ideal) x w b shapeCasts_S1x33554432_S33554432 := by
  funext n
  rw [val_main_v12_apply, val_main_v11_apply, val_main_cst_0_apply, val_main_v10_apply, val_main_v9_apply,
    val_main_cst_apply, val_main_v8_apply, val_main_v7_apply, spelled_out_eq_logistic, val_main_v6_apply,
    val_main_v3_apply, val_main_v2_apply, val_main_v5_apply]
  unfold val_main_v0 val_main_v1 val_main_v4
  show FloatOps.logistic (F := Ideal) (φ := .f32) (FloatOps.addf (FloatOps.mulf (shapeCast S33554432 x shapeCasts_S1x33554432_S33554432 n) (w _)) (b _))
    = FloatOps.logistic (F := Ideal) (φ := .f32) (FloatOps.addf (FloatOps.mulf (shapeCast S33554432 x shapeCasts_S1x33554432_S33554432 n) (w at11)) (b at1))
  rw [only_entry2 w, only_entry1 b]

end Cert.ReferenceIdeal.RefValue

end
-- ==== Proof.lean ====
/-
  The kernel and its reference compute one function, entry by entry, on the extended reals.

  Both take a 1 × 33554432 array `x`, a 1 × 1 weight `w` and a one-entry bias `b`, and return the flat vector whose entry
  `n` is `σ(x (0, n) · w + b)`, `σ(z) = 1 / (1 + e^(-z))` the logistic function (`Sigmoid.flatOut`).

  * The kernel re-lays `x` as 262144 rows of 128, and over 32 grid points applies `σ(· w + b)` to 8192 rows at a time;
    the 32 row blocks cover the array, so the region's output is that function of every entry (`ArrayValue.region_output`),
    and re-laid flat it is `flatOut` (`RunValue.run`): re-laying in row-major order only renames indices.
  * The reference reads `x` flat and spells the logistic function out as `1 / (1 + exp (-z))` with the constant one; on the
    extended reals that quotient IS the logistic function, infinities included (`RefValue.result_value`).
  * The two products and sums are taken in the same order, so no law of arithmetic is needed beyond that identity, and
    the finiteness of the inputs is never used.

  Each program terminates without a fault and leaves its arguments unchanged: for the two kernel programs this is the
  generated frame; for the reference it is its generated run with the result dropped. The idealized kernel is the
  kernel's own text read over the extended reals (no operation was rewritten), so that conjunct is trivial.
-/
import proofs.«168162_j23029614641657_1_alg».proof.Defs
import proofs.«168162_j23029614641657_1_alg».proof.Proof.Gen.Kernel
import proofs.«168162_j23029614641657_1_alg».proof.Proof.Gen.Kernel.Skeleton
import proofs.«168162_j23029614641657_1_alg».proof.Proof.Gen.Kernel.Launch
import proofs.«168162_j23029614641657_1_alg».proof.Proof.Gen.Kernel.Points
import proofs.«168162_j23029614641657_1_alg».proof.Proof.Gen.Kernel.Frame
import proofs.«168162_j23029614641657_1_alg».proof.Proof.Gen.KernelIdeal
import proofs.«168162_j23029614641657_1_alg».proof.Proof.Gen.KernelIdeal.Skeleton
import proofs.«168162_j23029614641657_1_alg».proof.Proof.Gen.KernelIdeal.Launch
import proofs.«168162_j23029614641657_1_alg».proof.Proof.Gen.KernelIdeal.Points
import proofs.«168162_j23029614641657_1_alg».proof.Proof.Gen.KernelIdeal.Frame
import proofs.«168162_j23029614641657_1_alg».proof.Proof.Gen.ReferenceIdeal
import proofs.«168162_j23029614641657_1_alg».proof.Proof.Gen.ReferenceIdeal.Run
import proofs.«168162_j23029614641657_1_alg».proof.Proof.Gen.ReferenceIdeal.Read
import proofs.«168162_j23029614641657_1_alg».proof.Proof.Gen.Pre_finite_inputs
import proofs.«168162_j23029614641657_1_alg».proof.Proof.KernelRun
import proofs.«168162_j23029614641657_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the result at `flatOut` of those arguments. -/
theorem same_result : Cert.algebraic_KernelIdeal_ReferenceIdeal := by
  intro m ρ m' ρ' _ hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_value, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, same_result⟩

end Cert.Proof

end
